-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x64 .f32) (main_arg3 : FVec F S64 .f32) (main_arg4 : FVec F S64x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x500 : Shape := ⟨2, ![4000, 500]⟩
abbrev S4000x64 : Shape := ⟨2, ![4000, 64]⟩
abbrev S3300000x64 : Shape := ⟨2, ![3300000, 64]⟩
abbrev S1x64 : Shape := ⟨2, ![1, 64]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩

abbrev nBuf : Space → Nat
  | .hbm => 85
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S3300000x1, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x64, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x40, .f32⟩
  | .hbm, ⟨66, _⟩ => ⟨S3300000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x40, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .local _ .vmem, ⟨0, _⟩ => ⟨S4000x500, .f32⟩
  | .local _ .vmem, ⟨1, _⟩ => ⟨S4000x500, .f32⟩
  | .local _ .vmem, ⟨2, _⟩ => ⟨S500x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x40, .f32⟩
  | .local _ .vmem, ⟨8, _⟩ => ⟨S4000x40, .f32⟩
  | .local _ .vmem, ⟨9, _⟩ => ⟨S4000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x64_S4000x64_1_0_0_1_n_n_wf : DotDims.WF S4000x500 S500x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x40_S4000x40_1_0_0_1_n_n_wf : DotDims.WF S4000x64 S64x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x64_S4000x64_1_0_0_1_n_n : DotDims S4000x500 S500x64 S4000x64 where
  lhsContracting := [1]
  rhsContracting := [0]
  lhsNonContracting := [0]
  rhsNonContracting := [1]
  lhsBatch := []
  rhsBatch := []
  wf := dot_S4000x500_S500x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x64 : Shape := ⟨2, ![500, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 85
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S3300000x1, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x64, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x40, .f32⟩
  | .hbm, ⟨66, _⟩ => ⟨S3300000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x40, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x500_S500x64_S100000x64_1_0_0_1_n_n_wf : DotDims.WF S100000x500 S500x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's program is six segments: the host operations that build the edge lists and weights, the first
  row-blocked matrix product, the host aggregation, bias and relu, the second row-blocked matrix product, and the
  host aggregation and bias that produce the result. The generated frame module proves that this chain runs and names
  the buffer contents at every segment boundary; here the same chain is read once more at the END of the run, where the
  last boundary's contents are what the final memory holds — in particular at the result buffer. What the result buffer
  holds is therefore the last boundary's contents there, a pure term that the sibling modules evaluate.
-/
import proofs.«133184_j22385369546944_1_alg».proof.Proof.Gen.KernelIdeal.Frame

set_option maxRecDepth 16384

noncomputable section

namespace Cert.KernelIdeal.EndState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final memory the result buffer
    holds the last segment boundary's contents there, while the six argument arrays are as launched. -/
theorem run : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.EndState

end
-- ==== Proof.FirstProduct.lean ====
/-
  The first pallas_call multiplies x (100000 × 500) by W_cons (500 × 64) in 25 blocks of 4000 rows: at grid point t the body
  loads rows 4000·t … 4000·t + 3999 of x and all of W_cons, rounds both to bf16 (the identity on the extended reals),
  multiplies them into a zero accumulator and stores the 4000 × 64 block, which is written back as rows
  4000·t … 4000·t + 3999 of the result. Entry (r, q) of that result is therefore Σ_k x(r, k) · W_cons(k, q), the
  same sum the reference's one whole dot_general takes: the 25 blocks are the rows of one product.
-/
import proofs.«133184_j22385369546944_1_alg».proof.Proof.Gen.KernelIdeal.Frame
import proofs.«133184_j22385369546944_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)
open Cert.ReferenceIdeal.Read (lidx_main_v29 ridx_main_v29)

/-- The dimension numbers of the body's matrix product: a [4000, 500] block times the [500, 64] weight. -/
abbrev dims := dot_S4000x500_S500x64_S4000x64_1_0_0_1_n_n

theorem zero_offsets : (![0, 0] : Fin 2 → Nat) = fun _ => 0 := funext fun a => by fin_cases a <;> rfl

/-! ## The operand indices of the block product -/

/-- The left operand is read in the output's row … -/
theorem lhs_row (j : S4000x64.Idx) (q : dims.contr.Idx) : (dims.lhsIdx j q 0).val = (j 0).val := by
  unfold DotDims.lhsIdx
  rw [dif_neg (show ¬(0 : Fin S4000x500.rank) ∈ dims.lhsBatch by decide), dif_pos (show (0 : Fin S4000x500.rank) ∈ dims.lhsNonContracting by decide)]
  rfl
/-- … at the contraction index, -/
theorem lhs_contr (j : S4000x64.Idx) (q : dims.contr.Idx) : (dims.lhsIdx j q 1).val = (q ⟨0, by decide⟩).val :=
  dims.lhsIdx_val_of_single rfl j q
/-- and the right operand at the contraction index … -/
theorem rhs_contr (j : S4000x64.Idx) (q : dims.contr.Idx) : (dims.rhsIdx j q 0).val = (q ⟨0, by decide⟩).val :=
  dims.rhsIdx_val_of_single rfl j q
/-- … in the output's column. -/
theorem rhs_col (j : S4000x64.Idx) (q : dims.contr.Idx) : (dims.rhsIdx j q 1).val = (j 1).val := by
  unfold DotDims.rhsIdx
  rw [dif_neg (show ¬(1 : Fin S500x64.rank) ∈ dims.rhsBatch by decide), dif_pos (show (1 : Fin S500x64.rank) ∈ dims.rhsNonContracting by decide)]
  rfl

/-! ## What the body stores, at an index of the block

Over the extended reals the rounding to bf16 is the identity and the product accumulates into zero, so entry (p, q) of the
stored block is the sum over k of (left block)(p, k) · (right block)(k, q). When the left block is a run of rows of an array
`A` and the right block is the whole array `B`, that is entry (row, q) of the full product A · B. -/

theorem stored_at (x0 : Vec Ideal S4000x500 .f32) (x1 : Vec Ideal S500x64 .f32)
    (A : Cert.ReferenceIdeal.S100000x500.Idx → EReal) (B : Cert.ReferenceIdeal.S500x64.Idx → EReal)
    (i : Cert.ReferenceIdeal.S100000x64.Idx) (j : S4000x64.Idx)
    (h0 : ∀ (y : S4000x500.Idx) (k : Fin 500), (y 0).val = (j 0).val → (y 1).val = k.val → x0 y = A (lidx_main_v29 i k))
    (h1 : ∀ (y : S500x64.Idx) (k : Fin 500), (y 0).val = k.val → (y 1).val = (j 1).val → x1 y = B (ridx_main_v29 i k)) :
    k0_pay1 x0 x1 j = ∑ k : Fin 500, A (lidx_main_v29 i k) * B (ridx_main_v29 i k) := by
  unfold k0_pay1
  refine (Ideal.matmul_constant_zero_apply dims none (truncf .bf16 x0 bitsLt_bf16_f32) (truncf .bf16 x1 bitsLt_bf16_f32) j).trans ?_
  rw [← Equiv.sum_comp (ValueIdx.contrEquiv1 dims 500 rfl rfl).symm]
  refine Finset.sum_congr rfl fun k _ => ?_
  have hk := ValueIdx.contrEquiv1_symm_val dims 500 rfl rfl k
  show x0 _ * x1 _ = _
  rw [h0 _ k (lhs_row _ _) ((lhs_contr _ _).trans hk), h1 _ k ((rhs_contr _ _).trans hk) (rhs_col _ _)]

/-! ## From the blocks to the array -/

variable (V : (c : Dev nD) → (b : Ref sig .tc) → Buf (Elt Ideal) ((c : Thread nD τ).loc b))

/-- The index maps over the grid: the row-block windows move with the point, every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The full product of the two arrays the region is entered with. -/
abbrev product (c : Dev nD) : Buf (Elt Ideal) ((c : Thread nD τ).loc main_v29) :=
  Cert.ReferenceIdeal.Read.val_main_v29 (F := Ideal) (V c main_arg0) (V c main_arg2)

/-- What point `t` writes back is block `t` of the full product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S4000x500) zero_offsets, View.ld_unit_zero (S := S500x64) zero_offsets]
  obtain ⟨e0, e1, e2, e3, e4, e5⟩ := index_facts t
  funext j
  rw [View.read_apply]
  refine (stored_at (iblk0 V c 0 t) (iblk0 V c 1 t) (V c main_arg0) (V c main_arg2) (((cfg0.win 2).blk t).view.emb j) j ?_ ?_).trans ?_
  · intro y k hy0 hy1
    unfold iblk0
    rw [View.read_apply]
    show V c main_arg0 (((cfg0.win 0).blk t).view.emb y) = V c main_arg0 _
    refine congrArg _ (funext fun a => Fin.ext ?_)
    match a with
    | ⟨0, _⟩ =>
      show win0_0.index t (0 : Fin 2) * 4000 + 1 * (y 0).val = win0_2.index t (0 : Fin 2) * 4000 + 1 * (j 0).val
      rw [e0, e4, hy0]
    | ⟨1, _⟩ =>
      show win0_0.index t (1 : Fin 2) * 500 + 1 * (y 1).val = k.val
      rw [e1, hy1]; omega
  · intro y k hy0 hy1
    unfold iblk0
    rw [View.read_apply]
    show V c main_arg2 (((cfg0.win 1).blk t).view.emb y) = V c main_arg2 _
    refine congrArg _ (funext fun a => Fin.ext ?_)
    match a with
    | ⟨0, _⟩ =>
      show win0_1.index t (0 : Fin 2) * 500 + 1 * (y 0).val = k.val
      rw [e2, hy0]; omega
    | ⟨1, _⟩ =>
      show win0_1.index t (1 : Fin 2) * 64 + 1 * (y 1).val = win0_2.index t (1 : Fin 2) * 64 + 1 * (j 1).val
      rw [e3, e5, hy1]
  · exact (Cert.ReferenceIdeal.Read.val_main_v29_apply (V c main_arg0) (V c main_arg2) _).symm

/-- An index of the result array is in point `t`'s block iff each coordinate is in the block's range on its axis. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v29).slice (win0_2.rect t)).set ↔ _
  rw [View.set_slice_whole, Rect.mem_set_unit]
  exact Iff.rfl

/-- The 25 row blocks tile the result array: row `r` is in block `r / 4000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨e0, e1, e2, e3, e4, e5⟩ := index_facts t
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    rw [e4]; show (i 0).val / 4000 * 4000 ≤ (i 0).val ∧ (i 0).val < (i 0).val / 4000 * 4000 + 4000; omega
  | ⟨1, _⟩ =>
    show win0_2.index t (1 : Fin 2) * 64 ≤ (i 1).val ∧ (i 1).val < win0_2.index t (1 : Fin 2) * 64 + 64
    rw [e5]; omega

/-- After the region the result array holds the full product of the two arrays the region was entered with. -/
theorem result_array (c : Dev nD) : (dat0 V c).arrAt 2 cfg0.N = product V c :=
  (dat0 V c).arrAt_eq_of_cover 2 (product V c) (fun t _ => flushed_eq V c t) (covered)

end Cert.KernelIdeal.FirstProduct

end
-- ==== Proof.SecondProduct.lean ====
/-
  The second pallas_call multiplies the hidden layer h (100000 × 64) by W_cls (64 × 40) in 25 blocks of 4000 rows, exactly
  as the first one does for x and W_cons: at grid point t the body loads rows 4000·t … 4000·t + 3999 of h and all of W_cls,
  rounds both to bf16 (the identity on the extended reals), multiplies them into a zero accumulator and stores the
  4000 × 40 block, written back as the same rows of the result. Entry (r, q) of the result is Σ_k h(r, k) · W_cls(k, q): the
  reference's one whole dot_general of the same two arrays.
-/
import proofs.«133184_j22385369546944_1_alg».proof.Proof.Gen.KernelIdeal.Frame
import proofs.«133184_j22385369546944_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)
open Cert.ReferenceIdeal.Read (lidx_main_v47 ridx_main_v47)

/-- The dimension numbers of the body's matrix product: a [4000, 64] block times the [64, 40] weight. -/
abbrev dims := dot_S4000x64_S64x40_S4000x40_1_0_0_1_n_n

theorem zero_offsets : (![0, 0] : Fin 2 → Nat) = fun _ => 0 := funext fun a => by fin_cases a <;> rfl

/-! ## The operand indices of the block product -/

/-- The left operand is read in the output's row … -/
theorem lhs_row (j : S4000x40.Idx) (q : dims.contr.Idx) : (dims.lhsIdx j q 0).val = (j 0).val := by
  unfold DotDims.lhsIdx
  rw [dif_neg (show ¬(0 : Fin S4000x64.rank) ∈ dims.lhsBatch by decide), dif_pos (show (0 : Fin S4000x64.rank) ∈ dims.lhsNonContracting by decide)]
  rfl
/-- … at the contraction index, -/
theorem lhs_contr (j : S4000x40.Idx) (q : dims.contr.Idx) : (dims.lhsIdx j q 1).val = (q ⟨0, by decide⟩).val :=
  dims.lhsIdx_val_of_single rfl j q
/-- and the right operand at the contraction index … -/
theorem rhs_contr (j : S4000x40.Idx) (q : dims.contr.Idx) : (dims.rhsIdx j q 0).val = (q ⟨0, by decide⟩).val :=
  dims.rhsIdx_val_of_single rfl j q
/-- … in the output's column. -/
theorem rhs_col (j : S4000x40.Idx) (q : dims.contr.Idx) : (dims.rhsIdx j q 1).val = (j 1).val := by
  unfold DotDims.rhsIdx
  rw [dif_neg (show ¬(1 : Fin S64x40.rank) ∈ dims.rhsBatch by decide), dif_pos (show (1 : Fin S64x40.rank) ∈ dims.rhsNonContracting by decide)]
  rfl

/-! ## What the body stores, at an index of the block

Over the extended reals the rounding to bf16 is the identity and the product accumulates into zero, so entry (p, q) of the
stored block is the sum over k of (left block)(p, k) · (right block)(k, q). When the left block is a run of rows of an array
`A` and the right block is the whole array `B`, that is entry (row, q) of the full product A · B. -/

theorem stored_at (x0 : Vec Ideal S4000x64 .f32) (x1 : Vec Ideal S64x40 .f32)
    (A : Cert.ReferenceIdeal.S100000x64.Idx → EReal) (B : Cert.ReferenceIdeal.S64x40.Idx → EReal)
    (i : Cert.ReferenceIdeal.S100000x40.Idx) (j : S4000x40.Idx)
    (h0 : ∀ (y : S4000x64.Idx) (k : Fin 64), (y 0).val = (j 0).val → (y 1).val = k.val → x0 y = A (lidx_main_v47 i k))
    (h1 : ∀ (y : S64x40.Idx) (k : Fin 64), (y 0).val = k.val → (y 1).val = (j 1).val → x1 y = B (ridx_main_v47 i k)) :
    k1_pay1 x0 x1 j = ∑ k : Fin 64, A (lidx_main_v47 i k) * B (ridx_main_v47 i k) := by
  unfold k1_pay1
  refine (Ideal.matmul_constant_zero_apply dims none (truncf .bf16 (shapeCast S4000x64 x0 shapeCasts_S4000x64_S4000x64) bitsLt_bf16_f32) (truncf .bf16 x1 bitsLt_bf16_f32) j).trans ?_
  rw [← Equiv.sum_comp (ValueIdx.contrEquiv1 dims 64 rfl rfl).symm]
  refine Finset.sum_congr rfl fun k _ => ?_
  have hk := ValueIdx.contrEquiv1_symm_val dims 64 rfl rfl k
  show (shapeCast S4000x64 x0 shapeCasts_S4000x64_S4000x64) _ * x1 _ = _
  rw [shapeCast_self x0 shapeCasts_S4000x64_S4000x64]
  rw [h0 _ k (lhs_row _ _) ((lhs_contr _ _).trans hk), h1 _ k ((rhs_contr _ _).trans hk) (rhs_col _ _)]

/-! ## The reference's whole product, at an index -/

/-- The host's dot_general of a [100000, 64] array and a [64, 40] array, read at an index over the extended reals: the sum
    over the one contracted axis. -/
theorem whole_at (A : FVec Ideal Cert.ReferenceIdeal.S100000x64 .f32) (B : FVec Ideal Cert.ReferenceIdeal.S64x40 .f32)
    (i : Cert.ReferenceIdeal.S100000x40.Idx) :
    Host.dotGeneral (F := Ideal) Cert.ReferenceIdeal.dot_S100000x64_S64x40_S100000x40_1_0_0_1_n_n none A B i
      = ∑ k : Fin 64, A (lidx_main_v47 i k) * B (ridx_main_v47 i k) := by
  simp only [Host.dotGeneral]
  rw [Ideal.dotGeneral_apply, ← Equiv.sum_comp (ValueIdx.contrEquiv1 Cert.ReferenceIdeal.dot_S100000x64_S64x40_S100000x40_1_0_0_1_n_n 64 rfl rfl).symm]
  refine Finset.sum_congr rfl fun k _ => ?_
  have hk := ValueIdx.contrEquiv1_symm_val Cert.ReferenceIdeal.dot_S100000x64_S64x40_S100000x40_1_0_0_1_n_n 64 rfl rfl k
  have el : Cert.ReferenceIdeal.dot_S100000x64_S64x40_S100000x40_1_0_0_1_n_n.lhsIdx i ((ValueIdx.contrEquiv1 Cert.ReferenceIdeal.dot_S100000x64_S64x40_S100000x40_1_0_0_1_n_n 64 rfl rfl).symm k) = lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S100000x64_S64x40_S100000x40_1_0_0_1_n_n.rhsIdx i ((ValueIdx.contrEquiv1 Cert.ReferenceIdeal.dot_S100000x64_S64x40_S100000x40_1_0_0_1_n_n 64 rfl rfl).symm k) = ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-! ## From the blocks to the array -/

variable (V : (c : Dev nD) → (b : Ref sig .tc) → Buf (Elt Ideal) ((c : Thread nD τ).loc b))

/-- The index maps over the grid: the row-block windows move with the point, every other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The full product of the two arrays the region is entered with. -/
abbrev product (c : Dev nD) : Buf (Elt Ideal) ((c : Thread nD τ).loc main_v47) :=
  Host.dotGeneral (F := Ideal) (φ₁ := .f32) (φ₂ := .f32) Cert.ReferenceIdeal.dot_S100000x64_S64x40_S100000x40_1_0_0_1_n_n none (V c main_v46) (V c main_arg4)

/-- What point `t` writes back is block `t` of the full product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S4000x64) zero_offsets, View.ld_unit_zero (S := S64x40) zero_offsets]
  obtain ⟨e0, e1, e2, e3, e4, e5⟩ := index_facts t
  funext j
  rw [View.read_apply]
  refine (stored_at (iblk1 V c 0 t) (iblk1 V c 1 t) (V c main_v46) (V c main_arg4) (((cfg1.win 2).blk t).view.emb j) j ?_ ?_).trans ?_
  · intro y k hy0 hy1
    unfold iblk1
    rw [View.read_apply]
    show V c main_v46 (((cfg1.win 0).blk t).view.emb y) = V c main_v46 _
    refine congrArg _ (funext fun a => Fin.ext ?_)
    match a with
    | ⟨0, _⟩ =>
      show win1_0.index t (0 : Fin 2) * 4000 + 1 * (y 0).val = win1_2.index t (0 : Fin 2) * 4000 + 1 * (j 0).val
      rw [e0, e4, hy0]
    | ⟨1, _⟩ =>
      show win1_0.index t (1 : Fin 2) * 64 + 1 * (y 1).val = k.val
      rw [e1, hy1]; omega
  · intro y k hy0 hy1
    unfold iblk1
    rw [View.read_apply]
    show V c main_arg4 (((cfg1.win 1).blk t).view.emb y) = V c main_arg4 _
    refine congrArg _ (funext fun a => Fin.ext ?_)
    match a with
    | ⟨0, _⟩ =>
      show win1_1.index t (0 : Fin 2) * 64 + 1 * (y 0).val = k.val
      rw [e2, hy0]; omega
    | ⟨1, _⟩ =>
      show win1_1.index t (1 : Fin 2) * 40 + 1 * (y 1).val = win1_2.index t (1 : Fin 2) * 40 + 1 * (j 1).val
      rw [e3, e5, hy1]
  · exact (whole_at (V c main_v46) (V c main_arg4) _).symm

/-- An index of the result array is in point `t`'s block iff each coordinate is in the block's range on its axis. -/
theorem mem_block (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v47).slice (win1_2.rect t)).set ↔ _
  rw [View.set_slice_whole, Rect.mem_set_unit]
  exact Iff.rfl

/-- The 25 row blocks tile the result array: row `r` is in block `r / 4000`. -/
theorem covered (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨e0, e1, e2, e3, e4, e5⟩ := index_facts t
  refine ⟨t, flush1_2 t, ?_⟩
  rw [mem_block]
  intro a
  match a with
  | ⟨0, _⟩ =>
    show win1_2.index t (0 : Fin 2) * 4000 ≤ (i 0).val ∧ (i 0).val < win1_2.index t (0 : Fin 2) * 4000 + 4000
    rw [e4]; show (i 0).val / 4000 * 4000 ≤ (i 0).val ∧ (i 0).val < (i 0).val / 4000 * 4000 + 4000; omega
  | ⟨1, _⟩ =>
    show win1_2.index t (1 : Fin 2) * 40 ≤ (i 1).val ∧ (i 1).val < win1_2.index t (1 : Fin 2) * 40 + 40
    rw [e5]; omega

/-- After the region the result array holds the full product of the two arrays the region was entered with. -/
theorem result_array (c : Dev nD) : (dat1 V c).arrAt 2 cfg1.N = product V c :=
  (dat1 V c).arrAt_eq_of_cover 2 (product V c) (fun t _ => flushed_eq V c t) (covered)

end Cert.KernelIdeal.SecondProduct

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.HostChain.lean ====
/-
  The host operations of the idealized kernel's program, stretch by stretch, read against the reference's stages.
  Both programs apply the same host operations to the same edge list: the source and destination lists with the self
  loops appended, the degree-normalised edge weights rsqrt(max(deg, 1))[src] · rsqrt(max(deg, 1))[dst], the
  gather–scale–scatter aggregation, the bias and the relu. So once a matrix product's result agrees with the reference's
  stage, every buffer a later stretch computes from it agrees with the reference's stage as well, operation for operation:
  nothing in these stretches is evaluated, they are only recognised as the same composition.
-/
import proofs.«133184_j22385369546944_1_alg».proof.Proof.Gen.KernelIdeal.Frame
import proofs.«133184_j22385369546944_1_alg».proof.Proof.Gen.ReferenceIdeal.Read
import proofs.«133184_j22385369546944_1_alg».proof.Proof.LibTypedRef

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.Lib.TypedRef (toBuf_heq ofBuf_heq ofBuf_toBuf)
open Cert.ReferenceIdeal.Read (val_main_v3 val_main_v6 val_main_v28 val_main_v29 val_main_v45 val_main_v46 val_main_v47 val_main_v63)

variable (m : (ℓ : Loc nD τ sig) → Buf (Elt Ideal) ℓ) (ρ : Dev nD → PrngReg)

/-! ## Before the first product: the edge lists and the edge weights -/

/-- The source list (edge sources, then one self loop per node) is the reference's. -/
theorem src_eq (c : Dev nD) :
    W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The destination list is the reference's. -/
theorem dst_eq (c : Dev nD) :
    W1 m ρ c (Proc.devRef .tc main_v6) = val_main_v6 (F := Ideal) (m ((c : Thread nD τ).loc main_arg1)) := by
  show StableHlo.after hostOps0 (W0 m ρ c) (Proc.devRef .tc main_v6) = _
  after_results_simp
  rfl

/-- The edge weights are the reference's. -/
theorem wgt_eq (c : Dev nD) :
    W1 m ρ c (Proc.devRef .tc main_v28) = val_main_v28 (F := Ideal) (m ((c : Thread nD τ).loc main_arg1)) := by
  show StableHlo.after hostOps0 (W0 m ρ c) (Proc.devRef .tc main_v28) = _
  after_results_simp
  rfl

/-- No operation of the first stretch writes an argument. -/
theorem entry0_arg (c : Dev nD) :
    V1 m ρ c main_arg0 = m ((c : Thread nD τ).loc main_arg0) ∧ V1 m ρ c main_arg2 = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5) := by
  refine ⟨?_, ?_, ?_, ?_, ?_⟩
  · show StableHlo.after hostOps0 (W0 m ρ c) (Proc.devRef .tc main_arg0) = _
    after_results_simp
  · show StableHlo.after hostOps0 (W0 m ρ c) (Proc.devRef .tc main_arg2) = _
    after_results_simp
  · show StableHlo.after hostOps0 (W0 m ρ c) (Proc.devRef .tc main_arg3) = _
    after_results_simp
  · show StableHlo.after hostOps0 (W0 m ρ c) (Proc.devRef .tc main_arg4) = _
    after_results_simp
  · show StableHlo.after hostOps0 (W0 m ρ c) (Proc.devRef .tc main_arg5) = _
    after_results_simp

/-! ## Between the products: aggregation, bias and relu of the first product -/

/-- The first region writes only its result array: the lists, the weights and the other arguments pass through it. -/
theorem exit0 (c : Dev nD) :
    W2 m ρ c (Proc.devRef .tc main_v3) = val_main_v3 (F := Ideal) (m ((c : Thread nD τ).loc main_arg1))
    ∧ W2 m ρ c (Proc.devRef .tc main_v6) = val_main_v6 (F := Ideal) (m ((c : Thread nD τ).loc main_arg1))
    ∧ W2 m ρ c (Proc.devRef .tc main_v28) = val_main_v28 (F := Ideal) (m ((c : Thread nD τ).loc main_arg1))
    ∧ W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5) :=
  ⟨(W2_of_ne m ρ c main_v3 (by decide)).trans (src_eq m ρ c),
   (W2_of_ne m ρ c main_v6 (by decide)).trans (dst_eq m ρ c),
   (W2_of_ne m ρ c main_v28 (by decide)).trans (wgt_eq m ρ c),
   (W2_of_ne m ρ c main_arg3 (by decide)).trans (entry0_arg m ρ c).2.2.1,
   (W2_of_ne m ρ c main_arg4 (by decide)).trans (entry0_arg m ρ c).2.2.2.1,
   (W2_of_ne m ρ c main_arg5 (by decide)).trans (entry0_arg m ρ c).2.2.2.2⟩

/-- If the first region leaves the reference's first product, then before the relu the buffer holds the reference's
    aggregate(product) + b_cons: the two sides are the same operations, compared one operation at a time. -/
theorem pre_relu_eq (c : Dev nD)
    (h : W2 m ρ c (Proc.devRef .tc main_v29) = val_main_v29 (F := Ideal) (m ((c : Thread nD τ).loc main_arg0)) (m ((c : Thread nD τ).loc main_arg2))) :
    W3 m ρ c (Proc.devRef .tc main_v45) = val_main_v45 (F := Ideal) (m ((c : Thread nD τ).loc main_arg0)) (m ((c : Thread nD τ).loc main_arg1))
      (m ((c : Thread nD τ).loc main_arg2)) (m ((c : Thread nD τ).loc main_arg3)) := by
  obtain ⟨e3, e6, e28, ea3, -, -⟩ := exit0 m ρ c
  show StableHlo.after hostOps1 (W2 m ρ c) (Proc.devRef .tc main_v45) = _
  after_results_simp
  rw [h, e3, e6, e28, ea3]
  unfold Cert.ReferenceIdeal.Read.val_main_v45
  refine congrArg₂ addf ?_ rfl
  unfold Cert.ReferenceIdeal.Read.val_main_v42
  refine congrArg₂ (Host.scatterAdd _ _) rfl ?_
  unfold Cert.ReferenceIdeal.Read.val_main_v39
  exact congrArg₂ mulf rfl rfl

/-- … and the second region is entered with the reference's hidden layer relu(aggregate(product) + b_cons). The relu is an
    outlined function: its operations read and write through typed references, whose transports change nothing. -/
theorem hidden_eq (c : Dev nD)
    (h : W2 m ρ c (Proc.devRef .tc main_v29) = val_main_v29 (F := Ideal) (m ((c : Thread nD τ).loc main_arg0)) (m ((c : Thread nD τ).loc main_arg2))) :
    V4 m ρ c main_v46 = val_main_v46 (F := Ideal) (m ((c : Thread nD τ).loc main_arg0)) (m ((c : Thread nD τ).loc main_arg1))
      (m ((c : Thread nD τ).loc main_arg2)) (m ((c : Thread nD τ).loc main_arg3)) := by
  have e45 := pre_relu_eq m ρ c h
  show StableHlo.after hostOps1_1 (W3 m ρ c) (Proc.devRef .tc main_v46) = _
  generalize W3 m ρ c = U at e45 ⊢
  have e45' : (TRef.of (sig := sig) (T := ⟨S100000x64, .f32⟩) main_v45).ofBuf (U (Proc.devRef .tc main_v45))
      = val_main_v45 (F := Ideal) (m ((c : Thread nD τ).loc main_arg0)) (m ((c : Thread nD τ).loc main_arg1))
        (m ((c : Thread nD τ).loc main_arg2)) (m ((c : Thread nD τ).loc main_arg3)) :=
    eq_of_heq ((ofBuf_heq _ _).trans (heq_of_eq e45))
  after_results_simp
  refine eq_of_heq ((toBuf_heq _ _).trans (heq_of_eq ?_))
  rw [ofBuf_toBuf, ofBuf_toBuf, e45']
  unfold Cert.ReferenceIdeal.Read.val_main_v46
  exact congrArg₂ maximumf rfl rfl

/-- The stretch between the regions writes none of the buffers the last stretch reads besides the hidden layer. -/
theorem entry1 (c : Dev nD) :
    V4 m ρ c main_arg4 = m ((c : Thread nD τ).loc main_arg4)
    ∧ W4 m ρ c (Proc.devRef .tc main_v3) = val_main_v3 (F := Ideal) (m ((c : Thread nD τ).loc main_arg1))
    ∧ W4 m ρ c (Proc.devRef .tc main_v6) = val_main_v6 (F := Ideal) (m ((c : Thread nD τ).loc main_arg1))
    ∧ W4 m ρ c (Proc.devRef .tc main_v28) = val_main_v28 (F := Ideal) (m ((c : Thread nD τ).loc main_arg1))
    ∧ W4 m ρ c (Proc.devRef .tc main_arg5) = m ((c : Thread nD τ).loc main_arg5) := by
  obtain ⟨e3, e6, e28, -, ea4, ea5⟩ := exit0 m ρ c
  refine ⟨?_, ?_, ?_, ?_, ?_⟩
  · show StableHlo.after hostOps1_1 (StableHlo.after hostOps1 (W2 m ρ c)) (Proc.devRef .tc main_arg4) = _
    after_results_simp
    exact ea4
  · show StableHlo.after hostOps1_1 (StableHlo.after hostOps1 (W2 m ρ c)) (Proc.devRef .tc main_v3) = _
    after_results_simp
    exact e3
  · show StableHlo.after hostOps1_1 (StableHlo.after hostOps1 (W2 m ρ c)) (Proc.devRef .tc main_v6) = _
    after_results_simp
    exact e6
  · show StableHlo.after hostOps1_1 (StableHlo.after hostOps1 (W2 m ρ c)) (Proc.devRef .tc main_v28) = _
    after_results_simp
    exact e28
  · show StableHlo.after hostOps1_1 (StableHlo.after hostOps1 (W2 m ρ c)) (Proc.devRef .tc main_arg5) = _
    after_results_simp
    exact ea5

/-! ## After the second product: aggregation and bias -/

/-- If the second region leaves the reference's second product, the result buffer ends at the reference's result
    aggregate(product) + b_cls: again the same operations, compared one at a time. -/
theorem result_eq (c : Dev nD)
    (h : W5 m ρ c (Proc.devRef .tc main_v47) = val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) :
    W6 m ρ c (Proc.devRef .tc main_v63) = val_main_v63 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  obtain ⟨-, e3, e6, e28, ea5⟩ := entry1 m ρ c
  have f3 := (W5_of_ne m ρ c main_v3 (by decide)).trans e3
  have f6 := (W5_of_ne m ρ c main_v6 (by decide)).trans e6
  have f28 := (W5_of_ne m ρ c main_v28 (by decide)).trans e28
  have fa5 := (W5_of_ne m ρ c main_arg5 (by decide)).trans ea5
  show StableHlo.after hostOps2 (W5 m ρ c) (Proc.devRef .tc main_v63) = _
  after_results_simp
  rw [h, f3, f6, f28, fa5]
  unfold Cert.ReferenceIdeal.Read.val_main_v63
  refine congrArg₂ addf ?_ rfl
  unfold Cert.ReferenceIdeal.Read.val_main_v60
  refine congrArg₂ (Host.scatterAdd _ _) rfl ?_
  unfold Cert.ReferenceIdeal.Read.val_main_v57
  exact congrArg₂ mulf rfl rfl

end Cert.KernelIdeal.HostChain

end
-- ==== Proof.KernelValue.lean ====
/-
  The value of the idealized kernel's whole program: the segments put together. The first region leaves the full product
  x · W_cons (its 25 row blocks are the rows of one product); the host stretch after it turns that into the hidden layer
  relu(Â (x · W_cons) + b_cons), the same operations the reference applies to its own product; the second region leaves the
  full product of the hidden layer with W_cls; the last stretch aggregates it and adds b_cls. At every step the buffer
  holds the reference's stage of the same arguments, so the result buffer ends at the reference's result.
-/
import proofs.«133184_j22385369546944_1_alg».proof.Proof.KernelRun
import proofs.«133184_j22385369546944_1_alg».proof.Proof.FirstProduct
import proofs.«133184_j22385369546944_1_alg».proof.Proof.SecondProduct
import proofs.«133184_j22385369546944_1_alg».proof.Proof.HostChain

set_option maxRecDepth 16384

noncomputable section

namespace Cert.KernelIdeal.Whole

open Cert.KernelIdeal Cert.KernelIdeal.Gen
open Idealize.ShloMosaic Idealize.ShloMosaic.TcCoe Idealize.SL.Sem
open Cert.ReferenceIdeal.Read (val_main_v29 val_main_v46 val_main_v47 val_main_v63)

variable (m : (ℓ : Loc nD τ sig) → Buf (Elt Ideal) ℓ) (ρ : Dev nD → PrngReg)

/-- The first region leaves x · W_cons, the reference's first product of the launch arguments. -/
theorem first_product (c : Dev nD) :
    W2 m ρ c (Proc.devRef .tc main_v29) = val_main_v29 (F := Ideal) (m ((c : Thread nD τ).loc main_arg0)) (m ((c : Thread nD τ).loc main_arg2)) := by
  refine (W2_arr m ρ c 2).trans ((FirstProduct.result_array (V1 m ρ) c).trans ?_)
  show val_main_v29 (F := Ideal) (V1 m ρ c main_arg0) (V1 m ρ c main_arg2) = _
  rw [(HostChain.entry0_arg m ρ c).1, (HostChain.entry0_arg m ρ c).2.1]

/-- The second region leaves (hidden layer) · W_cls, the reference's second product of the launch arguments. -/
theorem second_product (c : Dev nD) :
    W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((SecondProduct.result_array (V4 m ρ) c).trans ?_)
  show Host.dotGeneral (F := Ideal) (φ₁ := .f32) (φ₂ := .f32) Cert.ReferenceIdeal.dot_S100000x64_S64x40_S100000x40_1_0_0_1_n_n none (V4 m ρ c main_v46) (V4 m ρ c main_arg4) = _
  rw [HostChain.hidden_eq m ρ c (first_product m ρ c), (HostChain.entry1 m ρ c).1]
  rfl

/-- The result buffer ends at the reference's result of the launch arguments. -/
theorem result (c : Dev nD) :
    W6 m ρ c (Proc.devRef .tc main_v63) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  HostChain.result_eq m ρ c (second_product m ρ c)

/-- The program's run, read: every weakly fair execution terminates without a fault, the result buffer at the reference's
    result of the launch arguments, the arguments unchanged. -/
theorem run : θ_run defs (onTc (τ := τ) (main (F := Ideal))) ⟨m, fun _ => 0, ρ⟩ (fun r => ∀ c : Dev nD,
      r.2.mem ((c.tc : Thread nD τ).loc main_v63) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (EndState.run (F := Ideal) m ρ)

end Cert.KernelIdeal.Whole

end
-- ==== Proof.lean ====
/-
  A two-layer graph convolution: out = Â · (relu(Â · (x · W_cons) + b_cons) · W_cls) + b_cls, where Â is the
  degree-normalised adjacency with self loops, applied as gather – scale by the edge weight – scatter-add. The kernel computes
  the two dense products x · W_cons and h · W_cls in Pallas, each in 25 blocks of 4000 rows with the operands rounded to
  bf16 on the way into the matrix unit, and leaves everything else to the same host operations the reference uses.

  Over the extended reals the rounding is the identity and a block of rows of a product is the same rows of the whole
  product, entry by entry the same sum over the contracted axis; no algebraic law beyond that is needed, and in particular
  nothing about finiteness of the inputs. So each region leaves exactly the reference's dot_general of the same operands
  (FirstProduct, SecondProduct), the host stretches around them are the reference's operations on equal operands
  (HostChain), and the kernel's result buffer ends at the reference's result as a function of the launch arguments
  (KernelValue). The frames of the two kernel programs are the generated ones; the reference's frame is its generated run
  with the result dropped; the idealization rewrote nothing, so `preserves` is `True`.
-/
import proofs.«133184_j22385369546944_1_alg».proof.Defs
import proofs.«133184_j22385369546944_1_alg».proof.Proof.Gen.Kernel
import proofs.«133184_j22385369546944_1_alg».proof.Proof.Gen.Kernel.Frame
import proofs.«133184_j22385369546944_1_alg».proof.Proof.Gen.KernelIdeal
import proofs.«133184_j22385369546944_1_alg».proof.Proof.Gen.KernelIdeal.Frame
import proofs.«133184_j22385369546944_1_alg».proof.Proof.Gen.ReferenceIdeal
import proofs.«133184_j22385369546944_1_alg».proof.Proof.Gen.ReferenceIdeal.Run
import proofs.«133184_j22385369546944_1_alg».proof.Proof.Gen.ReferenceIdeal.Read
import proofs.«133184_j22385369546944_1_alg».proof.Proof.Gen.Pre_finite_inputs
import proofs.«133184_j22385369546944_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the arguments both programs end with the result buffer at one function of the arguments:
    the reference's last stage. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
